-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1024 .f32) (main_arg7 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S4x256x512 .f32) (main_arg1 : FVec F S4x64x512 .f32) (main_arg2 : FVec F S512x512 .f32) (main_arg3 : FVec F S512 .f32) (main_arg4 : FVec F S512x512 .f32) (main_arg5 : FVec F S512 .f32) (main_arg6 : FVec F S512x1024 .f32) (main_arg7 : FVec F S1024 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S4x256x512 : Shape := ⟨3, ![4, 256, 512]⟩
abbrev S4x64x512 : Shape := ⟨3, ![4, 64, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1024x512 : Shape := ⟨2, ![1024, 512]⟩
abbrev S256x512 : Shape := ⟨2, ![256, 512]⟩
abbrev S1x512 : Shape := ⟨2, ![1, 512]⟩
abbrev S4x256x64x1024 : Shape := ⟨4, ![4, 256, 64, 1024]⟩
abbrev S1x16x512 : Shape := ⟨3, ![1, 16, 512]⟩
abbrev S1x64x512 : Shape := ⟨3, ![1, 64, 512]⟩
abbrev S1x16x64x1024 : Shape := ⟨4, ![1, 16, 64, 1024]⟩
abbrev S16x512 : Shape := ⟨2, ![16, 512]⟩
abbrev S64x512 : Shape := ⟨2, ![64, 512]⟩
abbrev S16x1x512 : Shape := ⟨3, ![16, 1, 512]⟩
abbrev S16x64x512 : Shape := ⟨3, ![16, 64, 512]⟩
abbrev S1024x1024 : Shape := ⟨2, ![1024, 1024]⟩
abbrev S1x1024 : Shape := ⟨2, ![1, 1024]⟩
abbrev S16x64x1024 : Shape := ⟨3, ![16, 64, 1024]⟩

abbrev nBuf : Space → Nat
  | .hbm => 16
  | .vmem => 16
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S1024x512, .f32⟩
  | .hbm, ⟨9, _⟩ => ⟨S256x512, .f32⟩
  | .hbm, ⟨10, _⟩ => ⟨S1024x512, .f32⟩
  | .hbm, ⟨11, _⟩ => ⟨S256x512, .f32⟩
  | .hbm, ⟨12, _⟩ => ⟨S4x256x512, .f32⟩
  | .hbm, ⟨13, _⟩ => ⟨S4x64x512, .f32⟩
  | .hbm, ⟨14, _⟩ => ⟨S512x1024, .bf16⟩
  | .hbm, ⟨15, _⟩ => ⟨S4x256x64x1024, .f32⟩
  | .local _ .vmem, ⟨0, _⟩ => ⟨S1024x512, .f32⟩
  | .local _ .vmem, ⟨1, _⟩ => ⟨S512x512, .f32⟩
  | .local _ .vmem, ⟨2, _⟩ => ⟨S512, .f32⟩
  | .local _ .vmem, ⟨3, _⟩ => ⟨S1024x512, .f32⟩
  | .local _ .vmem, ⟨4, _⟩ => ⟨S256x512, .f32⟩
  | .local _ .vmem, ⟨5, _⟩ => ⟨S512x512, .f32⟩
  | .local _ .vmem, ⟨6, _⟩ => ⟨S512, .f32⟩
  | .local _ .vmem, ⟨7, _⟩ => ⟨S256x512, .f32⟩
  | .local _ .vmem, ⟨8, _⟩ => ⟨S1x16x512, .f32⟩
  | .local _ .vmem, ⟨9, _⟩ => ⟨S1x16x512, .f32⟩
  | .local _ .vmem, ⟨10, _⟩ => ⟨S1x64x512, .f32⟩
  | .local _ .vmem, ⟨11, _⟩ => ⟨S1x64x512, .f32⟩
  | .local _ .vmem, ⟨12, _⟩ => ⟨S512x1024, .bf16⟩
  | .local _ .vmem, ⟨13, _⟩ => ⟨S1024, .f32⟩
  | .local _ .vmem, ⟨14, _⟩ => ⟨S1x16x64x1024, .f32⟩
  | .local _ .vmem, ⟨15, _⟩ => ⟨S1x16x64x1024, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem4_1 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x16x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S512x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x16x64x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  shapeCasts_S4x256x512_S1024x512 : S4x256x512.ShapeCasts S1024x512
  shapeCasts_S4x64x512_S256x512 : S4x64x512.ShapeCasts S256x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  broadcasts_S1x512_S256x512 : S1x512.Broadcasts S256x512
  shapeCasts_S1024x512_S4x256x512 : S1024x512.ShapeCasts S4x256x512
  shapeCasts_S256x512_S4x64x512 : S256x512.ShapeCasts S4x64x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  shapeCasts_S16x64x512_S1024x512 : S16x64x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S1024x512_S512x512_S1024x512_1_0_0_1_n_n_wf : DotDims.WF S1024x512 S512x512 S1024x512 [1] [0] [0] [1] [] []
  dot_S256x512_S512x512_S256x512_1_0_0_1_n_n_wf : DotDims.WF S256x512 S512x512 S256x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S256x512.size a
  hwx1_0 : ∀ i : grid1.Coords, EltTy.bits .f32 = 32 ∨ (Rect.block (s := S256x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x512.size a ≤ S256x512.size a
  hwx1_3 : ∀ i : grid1.Coords, EltTy.bits .f32 = 32 ∨ (Rect.block (s := S256x512) S256x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512.size a ≤ S4x256x512.size a
  hwx2_0 : ∀ i : grid2.Coords, EltTy.bits .f32 = 32 ∨ (Rect.block (s := S4x256x512) S1x16x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x512.size a ≤ S4x64x512.size a
  hwx2_1 : ∀ i : grid2.Coords, EltTy.bits .f32 = 32 ∨ (Rect.block (s := S4x64x512) S1x64x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S512x1024.size a
  hwx2_2 : ∀ i : grid2.Coords, EltTy.bits .bf16 = 32 ∨ (Rect.block (s := S512x1024) S512x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x16x64x1024.size a ≤ S4x256x64x1024.size a
  hwx2_4 : ∀ i : grid2.Coords, EltTy.bits .f32 = 32 ∨ (Rect.block (s := S4x256x64x1024) S1x16x64x1024.size (cc2_transform_4 i) (hinb2_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S256x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x512.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v4) S1x16x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x64x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S512x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x16x64x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S512x512 : Shape := ⟨2, ![512, 512]⟩
abbrev S512 : Shape := ⟨1, ![512]⟩
abbrev S512x1024 : Shape := ⟨2, ![512, 1024]⟩
abbrev S1024 : Shape := ⟨1, ![1024]⟩
abbrev S1x1x512 : Shape := ⟨3, ![1, 1, 512]⟩
abbrev S4x256x1x512 : Shape := ⟨4, ![4, 256, 1, 512]⟩
abbrev S4x1x64x512 : Shape := ⟨4, ![4, 1, 64, 512]⟩
abbrev S4x256x64x512 : Shape := ⟨4, ![4, 256, 64, 512]⟩
abbrev S4x256x64x1024 : Shape := ⟨4, ![4, 256, 64, 1024]⟩
abbrev S1x1x1x1024 : Shape := ⟨4, ![1, 1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1024, .f32⟩
  | .hbm, ⟨7, _⟩ => ⟨S1024, .f32⟩
  | .hbm, ⟨8, _⟩ => ⟨S4x256x512, .f32⟩
  | .hbm, ⟨9, _⟩ => ⟨S1x1x512, .f32⟩
  | .hbm, ⟨10, _⟩ => ⟨S4x256x512, .f32⟩
  | .hbm, ⟨11, _⟩ => ⟨S4x256x512, .f32⟩
  | .hbm, ⟨12, _⟩ => ⟨S4x64x512, .f32⟩
  | .hbm, ⟨13, _⟩ => ⟨S1x1x512, .f32⟩
  | .hbm, ⟨14, _⟩ => ⟨S4x64x512, .f32⟩
  | .hbm, ⟨15, _⟩ => ⟨S4x64x512, .f32⟩
  | .hbm, ⟨16, _⟩ => ⟨S4x256x1x512, .f32⟩
  | .hbm, ⟨17, _⟩ => ⟨S4x1x64x512, .f32⟩
  | .hbm, ⟨18, _⟩ => ⟨S4x256x64x512, .f32⟩
  | .hbm, ⟨19, _⟩ => ⟨S4x256x64x512, .f32⟩
  | .hbm, ⟨20, _⟩ => ⟨S4x256x64x512, .f32⟩
  | .hbm, ⟨21, _⟩ => ⟨S4x256x64x512, .f32⟩
  | .hbm, ⟨22, _⟩ => ⟨S4x256x64x1024, .f32⟩
  | .hbm, ⟨23, _⟩ => ⟨S1x1x1x1024, .f32⟩
  | .hbm, ⟨24, _⟩ => ⟨S4x256x64x1024, .f32⟩
  | .hbm, ⟨25, _⟩ => ⟨S4x256x64x1024, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x256x512_0_1_2 : S1x1x512.BroadcastsInDim S4x256x512 (![0, 1, 2] : Fin 3 → Fin S4x256x512.rank)
  bcast_S1x1x512_S4x64x512_0_1_2 : S1x1x512.BroadcastsInDim S4x64x512 (![0, 1, 2] : Fin 3 → Fin S4x64x512.rank)
  bcast_S4x256x512_S4x256x1x512_0_1_3 : S4x256x512.BroadcastsInDim S4x256x1x512 (![0, 1, 3] : Fin 3 → Fin S4x256x1x512.rank)
  bcast_S4x64x512_S4x1x64x512_0_2_3 : S4x64x512.BroadcastsInDim S4x1x64x512 (![0, 2, 3] : Fin 3 → Fin S4x1x64x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S1024_S1x1x1x1024_3 : S1024.BroadcastsInDim S1x1x1x1024 (![3] : Fin 1 → Fin S1x1x1x1024.rank)
  bcast_S1x1x1x1024_S4x256x64x1024_0_1_2_3 : S1x1x1x1024.BroadcastsInDim S4x256x64x1024 (![0, 1, 2, 3] : Fin 4 → Fin S4x256x64x1024.rank)
  dot_S4x256x512_S512x512_S4x256x512_2_0_01_1_n_n_wf : DotDims.WF S4x256x512 S512x512 S4x256x512 [2] [0] [0, 1] [1] [] []
  dot_S4x64x512_S512x512_S4x64x512_2_0_01_1_n_n_wf : DotDims.WF S4x64x512 S512x512 S4x64x512 [2] [0] [0, 1] [1] [] []
  dot_S4x256x64x512_S512x1024_S4x256x64x1024_3_0_012_1_n_n_wf : DotDims.WF S4x256x64x512 S512x1024 S4x256x64x1024 [3] [0] [0, 1, 2] [1] [] []

variable [Facts₀]

def dot_S4x256x512_S512x512_S4x256x512_2_0_01_1_n_n : DotDims S4x256x512 S512x512 S4x256x512 where
  lhsContracting := [2]
  rhsContracting := [0]
  lhsNonContracting := [0, 1]
  rhsNonContracting := [1]
  lhsBatch := []
  rhsBatch := []
  wf := dot_S4x256x512_S512x512_S4x256x512_2_0_01_1_n_n_wf
def dot_S4x64x512_S512x512_S4x64x512_2_0_01_1_n_n : DotDims S4x64x512 S512x512 S4x64x512 where
  lhsContracting := [2]
  rhsContracting := [0]
  lhsNonContracting := [0, 1]
  rhsNonContracting := [1]
  lhsBatch := []
  rhsBatch := []
  wf := dot_S4x64x512_S512x512_S4x64x512_2_0_01_1_n_n_wf
def dot_S4x256x64x512_S512x1024_S4x256x64x1024_3_0_012_1_n_n : DotDims S4x256x64x512 S512x1024 S4x256x64x1024 where
  lhsContracting := [3]
  rhsContracting := [0]
  lhsNonContracting := [0, 1, 2]
  rhsNonContracting := [1]
  lhsBatch := []
  rhsBatch := []
  wf := dot_S4x256x64x512_S512x1024_S4x256x64x1024_3_0_012_1_n_n_wf

class Facts : Prop extends Facts₀ where

variable [Facts]
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.LibRowVector.lean ====
/-
  A vector laid along every row of a matrix, read at an index.

  A length-`n` vector is cast to a single row `[1, n]` and that row is repeated down `m` rows. Entry `(p, q)` of the
  result is entry `q` of the vector, whatever `p` is: the broadcast reads its one-row operand at row 0 and the same
  column, and the cast keeps the row-major position `0·n + q = q`.
-/
import Idealize.ShloMosaic.Lib.Pipeline.Value
import Idealize.ShloMosaic.Lib.ValueIdx

noncomputable section

namespace Cert.RowVector

open Idealize.ShloMosaic Idealize.ShloMosaic.ValueIdx

variable {α : Type} {m n : Nat}

/-- A vector cast to one row and repeated down `m` rows, at `(p, q)`, is the vector at `q`. -/
theorem rowBroadcast_apply (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have hrow := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have := q.isLt; omega
      · rfl)
  have hcast := shapeCast_apply x h1 (ix2 (0 : Fin 1) q) (ix1 q) (by
    rw [Shape.rowMajor_val_two, Shape.rowMajor_val_one]; show q.val = 0 * n + q.val; omega)
  exact hrow.trans hcast

end Cert.RowVector

end
-- ==== Proof.LibMergeRows.lean ====
/-
  A stack of matrices `[G, m, n]` and the same entries laid out as one tall matrix `[G·m, n]` (row `g·m + a` is
  row `a` of matrix `g`), a block of columns of a matrix, and the "keep the axis" forms of a row statistic
  (`[G, m] → [G, m, 1] → [G, m, n]`: the statistic of row `(g, a)` repeated along the row), each read at an index.
-/
import Idealize.ShloMosaic.Lib.Pipeline.Value
import Idealize.ShloMosaic.Lib.ValueIdx

namespace Cert.Lib.MergeRows

open Idealize.ShloMosaic Idealize.ShloMosaic.ValueIdx

variable {α : Type} {G m n R : Nat}

/-- The stack read as one tall matrix: row `r = g·m + a`, column `c`, is entry `(g, a, c)`. -/
theorem merge_apply (x : (⟨3, ![G, m, n]⟩ : Shape).Idx → α) (h : (⟨3, ![G, m, n]⟩ : Shape).ShapeCasts ⟨2, ![R, n]⟩)
    (g : Fin G) (a : Fin m) (c : Fin n) (r : Fin R) (hr : r.val = g.val * m + a.val) :
    shapeCast ⟨2, ![R, n]⟩ x h (ix2 r c) = x (ix3 g a c) :=
  shapeCast_apply x h (ix2 r c) (ix3 g a c) (by
    rw [Shape.rowMajor_val_three, Shape.rowMajor_val_two]
    show (g.val * m + a.val) * n + c.val = r.val * n + c.val
    rw [hr])

/-- The tall matrix read as a stack: entry `(g, a, c)` is row `r = g·m + a`, column `c`. -/
theorem split_apply (y : (⟨2, ![R, n]⟩ : Shape).Idx → α) (h : (⟨2, ![R, n]⟩ : Shape).ShapeCasts ⟨3, ![G, m, n]⟩)
    (g : Fin G) (a : Fin m) (c : Fin n) (r : Fin R) (hr : r.val = g.val * m + a.val) :
    shapeCast ⟨3, ![G, m, n]⟩ y h (ix3 g a c) = y (ix2 r c) :=
  shapeCast_apply y h (ix3 g a c) (ix2 r c) (by
    rw [Shape.rowMajor_val_three, Shape.rowMajor_val_two]
    show r.val * n + c.val = (g.val * m + a.val) * n + c.val
    rw [hr])

/-- Columns `off .. off + n` of a matrix with `N` columns: column `c` of the block is column `off + c`. -/
theorem columns_apply {N : Nat} (off : Nat) (y : (⟨2, ![R, N]⟩ : Shape).Idx → α)
    (h : (⟨2, ![R, N]⟩ : Shape).Slices ![0, off] ⟨2, ![R, n]⟩) (r : Fin R) (c : Fin n) (c' : Fin N)
    (hc : c'.val = off + c.val) :
    extractStridedSlice ⟨2, ![R, n]⟩ ![0, off] y h (ix2 r c) = y (ix2 r c') :=
  extractStridedSlice_apply ![0, off] y h (ix2 r c) (ix2 r c') (fun a => match a with
    | ⟨0, _⟩ => by show r.val = 0 + r.val; omega
    | ⟨1, _⟩ => by show c'.val = off + c.val; exact hc)

/-- A statistic per row given a trailing unit axis: entry `(g, a, 0)` is the statistic of row `(g, a)`. -/
theorem keep_apply (v : (⟨2, ![G, m]⟩ : Shape).Idx → α) (h : (⟨2, ![G, m]⟩ : Shape).ShapeCasts ⟨3, ![G, m, 1]⟩)
    (g : Fin G) (a : Fin m) :
    shapeCast ⟨3, ![G, m, 1]⟩ v h (ix3 g a (0 : Fin 1)) = v (ix2 g a) :=
  shapeCast_apply v h (ix3 g a (0 : Fin 1)) (ix2 g a) (by
    rw [Shape.rowMajor_val_three, Shape.rowMajor_val_two]
    show g.val * m + a.val = (g.val * m + a.val) * 1 + 0
    omega)

/-- That unit axis repeated along the row: entry `(g, a, c)` is entry `(g, a, 0)`. -/
theorem along_apply (w : (⟨3, ![G, m, 1]⟩ : Shape).Idx → α)
    (h : (⟨3, ![G, m, 1]⟩ : Shape).Broadcasts ⟨3, ![G, m, n]⟩) (g : Fin G) (a : Fin m) (c : Fin n) :
    broadcastTo ⟨3, ![G, m, n]⟩ w h (ix3 g a c) = w (ix3 g a (0 : Fin 1)) :=
  broadcastTo_apply w h (ix3 g a c) (ix3 g a (0 : Fin 1)) (fun ax => match ax with
    | ⟨0, _⟩ => by
      show g.val = if G = 1 then 0 else g.val
      split
      · have := g.isLt; omega
      · rfl
    | ⟨1, _⟩ => by
      show a.val = if m = 1 then 0 else a.val
      split
      · have := a.isLt; omega
      · rfl
    | ⟨2, _⟩ => rfl)

end Cert.Lib.MergeRows
-- ==== Proof.Bodies.lean ====
/-
  What each of the three kernel bodies stores, read at an index.

  The two projection bodies store a dense layer of their block: entry (r, j) is the sum over e of x(r, e) · w(e, j)
  plus the bias b(j) — the product into a zero accumulator is the textbook contraction, the roundings on the way into
  it are identities on the extended reals, and the bias is one row repeated down the rows.

  The joint body holds 16 encoder rows and 64 predictor rows. It adds every encoder row to every predictor row,
  applies tanh, lays the 16 × 64 sums out as 1024 rows (row r·64 + u is the pair (r, u)), multiplies by the vocabulary
  matrix, adds the bias row and lays the 1024 rows out again as 16 × 64. Entry (0, r, u, v) of what it stores is
  therefore the sum over j of tanh(enc(0, r, j) + pred(0, u, j)) · w(j, v), plus b(v).
-/
import proofs.«146445_j27479200760216_1_alg».proof.Proof.Gen.KernelIdeal.Skeleton
import proofs.«146445_j27479200760216_1_alg».proof.Proof.LibPlainProduct
import proofs.«146445_j27479200760216_1_alg».proof.Proof.LibRowVector
import proofs.«146445_j27479200760216_1_alg».proof.Proof.LibMergeRows
import Idealize.ShloMosaic.Lib.Pipeline.Value
import Idealize.ShloMosaic.Lib.ValueIdx

noncomputable section

namespace Cert.KernelIdeal.Bodies

open Cert.KernelIdeal Cert.KernelIdeal.Gen Idealize.ShloMosaic Idealize.ShloMosaic.ValueIdx

/-- The encoder projection's product is the plain [1024, 512] × [512, 512] one. -/
theorem dims_enc : dot_S1024x512_S512x512_S1024x512_1_0_0_1_n_n = DotDims.plain 1024 512 512 := rfl
/-- The predictor projection's product is the plain [256, 512] × [512, 512] one. -/
theorem dims_pred : dot_S256x512_S512x512_S256x512_1_0_0_1_n_n = DotDims.plain 256 512 512 := rfl
/-- The vocabulary product is the plain [1024, 512] × [512, 1024] one. -/
theorem dims_joint : dot_S1024x512_S512x1024_S1024x1024_1_0_0_1_n_n = DotDims.plain 1024 512 1024 := rfl

/-- The encoder projection's stored value at (r, j): row r of x against column j of w, plus b(j). -/
theorem enc_body_apply (x : FVec Ideal S1024x512 .f32) (w : FVec Ideal S512x512 .f32) (b : FVec Ideal S512 .f32)
    (r : Fin 1024) (j : Fin 512) :
    k0_pay1 (F := Ideal) x w b (ix2 r j) = (∑ e : Fin 512, x (ix2 r e) * w (ix2 e j)) + b (ix1 j) := by
  unfold k0_pay1
  refine (addf_apply _ _ _).trans ?_
  refine congrArg₂ (· + ·) ?_ ?_
  · refine (Cert.PlainProduct.matmul_plain_apply _ dims_enc none _ _ r j).trans ?_
    refine Finset.sum_congr rfl fun e _ => ?_
    rw [truncf_apply, truncf_apply, shapeCast_self]
  · exact Cert.RowVector.rowBroadcast_apply b _ _ r j

/-- The predictor projection's stored value at (r, j). -/
theorem pred_body_apply (x : FVec Ideal S256x512 .f32) (w : FVec Ideal S512x512 .f32) (b : FVec Ideal S512 .f32)
    (r : Fin 256) (j : Fin 512) :
    k1_pay1 (F := Ideal) x w b (ix2 r j) = (∑ e : Fin 512, x (ix2 r e) * w (ix2 e j)) + b (ix1 j) := by
  unfold k1_pay1
  refine (addf_apply _ _ _).trans ?_
  refine congrArg₂ (· + ·) ?_ ?_
  · refine (Cert.PlainProduct.matmul_plain_apply _ dims_pred none _ _ r j).trans ?_
    refine Finset.sum_congr rfl fun e _ => ?_
    rw [truncf_apply, truncf_apply, shapeCast_self]
  · exact Cert.RowVector.rowBroadcast_apply b _ _ r j

/-- The 16 encoder rows, each placed as a one-row slab and repeated across the 64 predictor positions: entry (r, u, j)
    is entry (0, r, j) of the encoder block. -/
theorem enc_rows_apply (x : FVec Ideal S1x16x512 .f32) (r : Fin 16) (u : Fin 64) (j : Fin 512) :
    broadcastTo S16x64x512 (shapeCast S16x1x512 (shapeCast S16x512 x shapeCasts_S1x16x512_S16x512)
      shapeCasts_S16x512_S16x1x512) broadcasts_S16x1x512_S16x64x512 (ix3 r u j) = x (ix3 (0 : Fin 1) r j) := by
  refine (broadcastTo_apply _ _ (ix3 r u j) (ix3 r (0 : Fin 1) j) ?_).trans ?_
  · intro a
    match a with
    | ⟨0, _⟩ => show r.val = if (16 : Nat) = 1 then 0 else r.val; rw [if_neg (by decide)]
    | ⟨1, _⟩ => show 0 = if (1 : Nat) = 1 then 0 else u.val; rw [if_pos rfl]
    | ⟨2, _⟩ => show j.val = if (512 : Nat) = 1 then 0 else j.val; rw [if_neg (by decide)]
  refine (shapeCast_apply _ _ (ix3 r (0 : Fin 1) j) (ix2 r j) ?_).trans ?_
  · rw [Shape.rowMajor_val_two, Shape.rowMajor_val_three]
    show r.val * 512 + j.val = (r.val * 1 + 0) * 512 + j.val
    omega
  exact shapeCast_apply _ _ (ix2 r j) (ix3 (0 : Fin 1) r j) (by
    rw [Shape.rowMajor_val_three, Shape.rowMajor_val_two]
    show (0 * 16 + r.val) * 512 + j.val = r.val * 512 + j.val
    omega)

/-- The 64 predictor rows repeated across the 16 encoder positions: entry (r, u, j) is entry (0, u, j) of the
    predictor block (dropping the block's leading unit axis and putting it back changes nothing). -/
theorem pred_rows_apply (x : FVec Ideal S1x64x512 .f32) (r : Fin 16) (u : Fin 64) (j : Fin 512) :
    broadcastTo S16x64x512 (shapeCast S1x64x512 (shapeCast S64x512 x shapeCasts_S1x64x512_S64x512)
      shapeCasts_S64x512_S1x64x512) broadcasts_S1x64x512_S16x64x512 (ix3 r u j) = x (ix3 (0 : Fin 1) u j) := by
  rw [shapeCast_shapeCast]
  refine broadcastTo_apply _ _ (ix3 r u j) (ix3 (0 : Fin 1) u j) ?_
  intro a
  match a with
  | ⟨0, _⟩ => show 0 = if (1 : Nat) = 1 then 0 else r.val; rw [if_pos rfl]
  | ⟨1, _⟩ => show u.val = if (64 : Nat) = 1 then 0 else u.val; rw [if_neg (by decide)]
  | ⟨2, _⟩ => show j.val = if (512 : Nat) = 1 then 0 else j.val; rw [if_neg (by decide)]

/-- The joint body's stored value at (0, r, u, v): over the joint coordinate j, tanh of encoder row r plus predictor
    row u, against column v of the vocabulary matrix, plus b(v). -/
theorem joint_body_apply (enc : FVec Ideal S1x16x512 .f32) (pred : FVec Ideal S1x64x512 .f32)
    (w : FVec Ideal S512x1024 .bf16) (b : FVec Ideal S1024 .f32) (r : Fin 16) (u : Fin 64) (v : Fin 1024) :
    k2_pay1 (F := Ideal) enc pred w b (ix4 (0 : Fin 1) r u v)
      = (∑ j : Fin 512, Ideal.tanh (enc (ix3 (0 : Fin 1) r j) + pred (ix3 (0 : Fin 1) u j)) * w (ix2 j v))
        + b (ix1 v) := by
  have hR : r.val * 64 + u.val < 1024 := by have := r.isLt; have := u.isLt; omega
  unfold k2_pay1
  refine (shapeCast_apply _ _ (ix4 (0 : Fin 1) r u v) (ix3 r u v) ?_).trans ?_
  · rw [Shape.rowMajor_val_three, Shape.rowMajor_val_four]
    show (r.val * 64 + u.val) * 1024 + v.val = ((0 * 16 + r.val) * 64 + u.val) * 1024 + v.val
    omega
  refine (Cert.Lib.MergeRows.split_apply _ _ r u v (⟨r.val * 64 + u.val, hR⟩ : Fin 1024) rfl).trans ?_
  refine (addf_apply _ _ _).trans ?_
  refine congrArg₂ (· + ·) ?_ ?_
  · refine (Cert.PlainProduct.matmul_plain_apply _ dims_joint none _ _ _ v).trans ?_
    refine Finset.sum_congr rfl fun j _ => ?_
    rw [shapeCast_self]
    refine congrArg (· * w (ix2 j v)) ?_
    refine (Cert.Lib.MergeRows.merge_apply _ _ r u j (⟨r.val * 64 + u.val, hR⟩ : Fin 1024) rfl).trans ?_
    show Ideal.tanh (addf (F := Ideal) (s := S16x64x512) (φ := .f32) _ _ (ix3 r u j)) = _
    rw [addf_apply, enc_rows_apply, pred_rows_apply]
  · exact Cert.RowVector.rowBroadcast_apply b _ _ _ v

end Cert.KernelIdeal.Bodies

end
-- ==== Proof.Spec.lean ====
/-
  The joint network of a transducer as one function of its eight arrays, over the extended reals.

  Encoder frames enc[n, t, ·] and predictor states pred[n, u, ·] are each sent through a dense layer into a common
  512-dimensional space (`rows`: entry (n, a, j) is the sum over e of x(n, a, e) · w(e, j), plus b(j)). For every
  pair (t, u) the two projected rows are added and passed through tanh, and the result is sent through a last dense
  layer into the vocabulary (`joint`: entry (n, t, u, v) is the sum over j of tanh(E(n, t, j) + P(n, u, j)) · w(j, v),
  plus b(v)). `logits` is the composition.

  `dense` is the same dense layer on a matrix of rows, which is how a kernel that has merged the two leading axes
  sees it.
-/
import Idealize.ShloMosaic.PureOps.Ideal
import Idealize.ShloMosaic.Lib.ValueIdx

noncomputable section

namespace Cert.Joint

open Idealize.ShloMosaic Idealize.ShloMosaic.ValueIdx

/-- A dense layer on a matrix of rows. -/
def dense {m : Nat} (x : FVec Ideal ⟨2, ![m, 512]⟩ .f32) (w : FVec Ideal ⟨2, ![512, 512]⟩ .f32)
    (b : FVec Ideal ⟨1, ![512]⟩ .f32) : FVec Ideal ⟨2, ![m, 512]⟩ .f32 :=
  fun i => (∑ e : Fin 512, x (ix2 (i 0) e) * w (ix2 e (i 1))) + b (ix1 (i 1))

theorem dense_apply {m : Nat} (x : FVec Ideal ⟨2, ![m, 512]⟩ .f32) (w : FVec Ideal ⟨2, ![512, 512]⟩ .f32)
    (b : FVec Ideal ⟨1, ![512]⟩ .f32) (r : Fin m) (j : Fin 512) :
    dense x w b (ix2 r j) = (∑ e : Fin 512, x (ix2 r e) * w (ix2 e j)) + b (ix1 j) := rfl

/-- The same dense layer on a stack of matrices of rows. -/
def rows {G m : Nat} (x : FVec Ideal ⟨3, ![G, m, 512]⟩ .f32) (w : FVec Ideal ⟨2, ![512, 512]⟩ .f32)
    (b : FVec Ideal ⟨1, ![512]⟩ .f32) : FVec Ideal ⟨3, ![G, m, 512]⟩ .f32 :=
  fun i => (∑ e : Fin 512, x (ix3 (i 0) (i 1) e) * w (ix2 e (i 2))) + b (ix1 (i 2))

theorem rows_apply {G m : Nat} (x : FVec Ideal ⟨3, ![G, m, 512]⟩ .f32) (w : FVec Ideal ⟨2, ![512, 512]⟩ .f32)
    (b : FVec Ideal ⟨1, ![512]⟩ .f32) (n : Fin G) (a : Fin m) (j : Fin 512) :
    rows x w b (ix3 n a j) = (∑ e : Fin 512, x (ix3 n a e) * w (ix2 e j)) + b (ix1 j) := rfl

/-- Every encoder row against every predictor row of the same utterance, through tanh and the vocabulary layer. -/
def joint {φ : FTy} (E : FVec Ideal ⟨3, ![4, 256, 512]⟩ .f32) (P : FVec Ideal ⟨3, ![4, 64, 512]⟩ .f32)
    (w : FVec Ideal ⟨2, ![512, 1024]⟩ φ) (b : FVec Ideal ⟨1, ![1024]⟩ .f32) : FVec Ideal ⟨4, ![4, 256, 64, 1024]⟩ .f32 :=
  fun i => (∑ j : Fin 512, Ideal.tanh (E (ix3 (i 0) (i 1) j) + P (ix3 (i 0) (i 2) j)) * w (ix2 j (i 3))) + b (ix1 (i 3))

theorem joint_apply {φ : FTy} (E : FVec Ideal ⟨3, ![4, 256, 512]⟩ .f32) (P : FVec Ideal ⟨3, ![4, 64, 512]⟩ .f32)
    (w : FVec Ideal ⟨2, ![512, 1024]⟩ φ) (b : FVec Ideal ⟨1, ![1024]⟩ .f32) (n : Fin 4) (t : Fin 256) (u : Fin 64)
    (v : Fin 1024) :
    joint E P w b (ix4 n t u v)
      = (∑ j : Fin 512, Ideal.tanh (E (ix3 n t j) + P (ix3 n u j)) * w (ix2 j v)) + b (ix1 v) := rfl

/-- The whole network. -/
def logits (enc : FVec Ideal ⟨3, ![4, 256, 512]⟩ .f32) (pred : FVec Ideal ⟨3, ![4, 64, 512]⟩ .f32)
    (wEnc : FVec Ideal ⟨2, ![512, 512]⟩ .f32) (bEnc : FVec Ideal ⟨1, ![512]⟩ .f32)
    (wPred : FVec Ideal ⟨2, ![512, 512]⟩ .f32) (bPred : FVec Ideal ⟨1, ![512]⟩ .f32)
    (wJoint : FVec Ideal ⟨2, ![512, 1024]⟩ .f32) (bJoint : FVec Ideal ⟨1, ![1024]⟩ .f32) :
    FVec Ideal ⟨4, ![4, 256, 64, 1024]⟩ .f32 :=
  joint (rows enc wEnc bEnc) (rows pred wPred bPred) wJoint bJoint

end Cert.Joint

end
-- ==== Proof.RegionEnc.lean ====
/-
  The encoder projection's array after its kernel has run, whatever the buffers held when it was entered.

  The kernel has one grid point, and each of its four windows is its whole array: the three input blocks are the
  matrix of encoder rows, the weight matrix and the bias as the region found them, and the one block written back
  covers the whole output. So the output array ends holding the dense layer of those three arrays.
-/
import proofs.«146445_j27479200760216_1_alg».proof.Proof.Gen.KernelIdeal.Frame
import proofs.«146445_j27479200760216_1_alg».proof.Proof.Bodies
import proofs.«146445_j27479200760216_1_alg».proof.Proof.Spec
import Idealize.ShloMosaic.Lib.Pipeline.Value
import Idealize.ShloMosaic.Lib.ValueIdx

set_option maxRecDepth 16384

noncomputable section

namespace Cert.KernelIdeal.RegionEnc

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem zeros1 : (![0] : Fin 1 → Nat) = fun _ => 0 := funext fun a => by fin_cases a <;> rfl
theorem zeros2 : (![0, 0] : Fin 2 → Nat) = fun _ => 0 := funext fun a => by fin_cases a <;> rfl

/-- Region 0 has one point, and every window's block there starts at the origin. -/
theorem origin0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- The first input block at the one point is the whole matrix of encoder rows, as the region found it. -/
theorem block0_0 (c : Dev nD) (t : Fin cfg0.N) : (iblk0 V c 0 t : S1024x512.Idx → EReal) = V c main_v0 := by
  obtain ⟨e0, e1, -⟩ := origin0 t
  funext y
  show V c main_v0 (((cfg0.win 0).blk t).view.emb y) = V c main_v0 y
  refine congrArg (V c main_v0) ?_
  funext a; apply Fin.ext
  match a with
  | ⟨0, _⟩ => show win0_0.index t (0 : Fin 2) * 1024 + 1 * (y 0).val = (y 0).val; omega
  | ⟨1, _⟩ => show win0_0.index t (1 : Fin 2) * 512 + 1 * (y 1).val = (y 1).val; omega

/-- The second input block is the whole weight matrix. -/
theorem block0_1 (c : Dev nD) (t : Fin cfg0.N) : (iblk0 V c 1 t : S512x512.Idx → EReal) = V c main_arg2 := by
  obtain ⟨-, -, e0, e1, -⟩ := origin0 t
  funext y
  show V c main_arg2 (((cfg0.win 1).blk t).view.emb y) = V c main_arg2 y
  refine congrArg (V c main_arg2) ?_
  funext a; apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The third input block is the whole bias. -/
theorem block0_2 (c : Dev nD) (t : Fin cfg0.N) : (iblk0 V c 2 t : S512.Idx → EReal) = V c main_arg3 := by
  obtain ⟨-, -, -, -, e0, -⟩ := origin0 t
  funext y
  show V c main_arg3 (((cfg0.win 2).blk t).view.emb y) = V c main_arg3 y
  refine congrArg (V c main_arg3) ?_
  funext a; apply Fin.ext
  match a with
  | ⟨0, _⟩ => show win0_2.index t (0 : Fin 1) * 512 + 1 * (y 0).val = (y 0).val; omega

/-- What region 0's one point writes back is the whole dense layer. -/
theorem flushed0 (c : Dev nD) (t : Fin cfg0.N) :
    (dat0 (F := Ideal) V c).flushed 3 t
      = ((cfg0.win 3).blk t).view.read (Elt Ideal) (Cert.Joint.dense (V c main_v0) (V c main_arg2) (V c main_arg3)) := by
  show (cfg0.win 3).cut (grid0.coords t) ((dat0 V c).after 3 t) = _
  rw [after0_3]
  unfold out0_3
  rw [View.canon_unit_zero zeros2]
  simp only [View.ld_unit_zero (S := S1024x512) zeros2, View.ld_unit_zero (S := S512x512) zeros2,
    View.ld_unit_zero (S := S512) zeros1]
  obtain ⟨-, -, -, -, -, e0, e1⟩ := origin0 t
  funext y
  obtain ⟨r, j, rfl⟩ : ∃ (r : Fin 1024) (j : Fin 512), y = ix2 r j := ⟨y 0, y 1, eq_ix2 y⟩
  refine (Bodies.enc_body_apply _ _ _ r j).trans ?_
  rw [block0_0, block0_1, block0_2]
  show _ = Cert.Joint.dense (V c main_v0) (V c main_arg2) (V c main_arg3) (((cfg0.win 3).blk t).view.emb (ix2 r j))
  have he : ((cfg0.win 3).blk t).view.emb (ix2 r j) = ix2 r j := by
    funext a; apply Fin.ext
    match a with
    | ⟨0, _⟩ => show win0_3.index t (0 : Fin 2) * 1024 + 1 * r.val = r.val; omega
    | ⟨1, _⟩ => show win0_3.index t (1 : Fin 2) * 512 + 1 * j.val = j.val; omega
  rw [he, Cert.Joint.dense_apply]

/-- An index lies in a point's output block iff each coordinate lies in the block's range on its axis. -/
theorem mem_block0 (t : Fin cfg0.N) (i : S1024x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v2).slice (win0_3.rect t)).set ↔ _
  rw [View.set_slice_whole, Rect.mem_set_unit]
  exact Iff.rfl

/-- After region 0 its output array holds the dense layer of what the region found in its three input arrays. -/
theorem array0 (c : Dev nD) :
    (dat0 (F := Ideal) V c).arrAt 3 cfg0.N = Cert.Joint.dense (V c main_v0) (V c main_arg2) (V c main_arg3) := by
  refine (dat0 (F := Ideal) V c).arrAt_eq_of_cover 3 _ (fun t _ => flushed0 V c t) fun i => ?_
  refine ⟨t0_0, flush0_3 t0_0, ?_⟩
  obtain ⟨-, -, -, -, -, e0, e1⟩ := origin0 t0_0
  rw [mem_block0]
  intro a
  match a with
  | ⟨0, _⟩ =>
    show win0_3.index t0_0 (0 : Fin 2) * 1024 ≤ (i 0).val ∧ (i 0).val < win0_3.index t0_0 (0 : Fin 2) * 1024 + 1024
    have := (i 0).isLt
    have h : (i 0).val < 1024 := this
    omega
  | ⟨1, _⟩ =>
    show win0_3.index t0_0 (1 : Fin 2) * 512 ≤ (i 1).val ∧ (i 1).val < win0_3.index t0_0 (1 : Fin 2) * 512 + 512
    have h : (i 1).val < 512 := (i 1).isLt
    omega

end Cert.KernelIdeal.RegionEnc

end
-- ==== Proof.RegionPred.lean ====
/-
  The predictor projection's array after its kernel has run, whatever the buffers held when it was entered.

  The kernel has one grid point, and each of its four windows is its whole array: the three input blocks are the
  matrix of predictor rows, the weight matrix and the bias as the region found them, and the one block written back
  covers the whole output. So the output array ends holding the dense layer of those three arrays.
-/
import proofs.«146445_j27479200760216_1_alg».proof.Proof.Gen.KernelIdeal.Frame
import proofs.«146445_j27479200760216_1_alg».proof.Proof.Bodies
import proofs.«146445_j27479200760216_1_alg».proof.Proof.Spec
import Idealize.ShloMosaic.Lib.Pipeline.Value
import Idealize.ShloMosaic.Lib.ValueIdx

set_option maxRecDepth 16384

noncomputable section

namespace Cert.KernelIdeal.RegionPred

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem zeros1 : (![0] : Fin 1 → Nat) = fun _ => 0 := funext fun a => by fin_cases a <;> rfl
theorem zeros2 : (![0, 0] : Fin 2 → Nat) = fun _ => 0 := funext fun a => by fin_cases a <;> rfl

/-- Region 1 has one point, and every window's block there starts at the origin. -/
theorem origin1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

/-- The first input block at the one point is the whole matrix of predictor rows, as the region found it. -/
theorem block1_0 (c : Dev nD) (t : Fin cfg1.N) : (iblk1 V c 0 t : S256x512.Idx → EReal) = V c main_v1 := by
  obtain ⟨e0, e1, -⟩ := origin1 t
  funext y
  show V c main_v1 (((cfg1.win 0).blk t).view.emb y) = V c main_v1 y
  refine congrArg (V c main_v1) ?_
  funext a; apply Fin.ext
  match a with
  | ⟨0, _⟩ => show win1_0.index t (0 : Fin 2) * 256 + 1 * (y 0).val = (y 0).val; omega
  | ⟨1, _⟩ => show win1_0.index t (1 : Fin 2) * 512 + 1 * (y 1).val = (y 1).val; omega

/-- The second input block is the whole weight matrix. -/
theorem block1_1 (c : Dev nD) (t : Fin cfg1.N) : (iblk1 V c 1 t : S512x512.Idx → EReal) = V c main_arg4 := by
  obtain ⟨-, -, e0, e1, -⟩ := origin1 t
  funext y
  show V c main_arg4 (((cfg1.win 1).blk t).view.emb y) = V c main_arg4 y
  refine congrArg (V c main_arg4) ?_
  funext a; apply Fin.ext
  match a with
  | ⟨0, _⟩ => show win1_1.index t (0 : Fin 2) * 512 + 1 * (y 0).val = (y 0).val; omega
  | ⟨1, _⟩ => show win1_1.index t (1 : Fin 2) * 512 + 1 * (y 1).val = (y 1).val; omega

/-- The third input block is the whole bias. -/
theorem block1_2 (c : Dev nD) (t : Fin cfg1.N) : (iblk1 V c 2 t : S512.Idx → EReal) = V c main_arg5 := by
  obtain ⟨-, -, -, -, e0, -⟩ := origin1 t
  funext y
  show V c main_arg5 (((cfg1.win 2).blk t).view.emb y) = V c main_arg5 y
  refine congrArg (V c main_arg5) ?_
  funext a; apply Fin.ext
  match a with
  | ⟨0, _⟩ => show win1_2.index t (0 : Fin 1) * 512 + 1 * (y 0).val = (y 0).val; omega

/-- What region 1's one point writes back is the whole dense layer. -/
theorem flushed1 (c : Dev nD) (t : Fin cfg1.N) :
    (dat1 (F := Ideal) V c).flushed 3 t
      = ((cfg1.win 3).blk t).view.read (Elt Ideal) (Cert.Joint.dense (V c main_v1) (V c main_arg4) (V c main_arg5)) := by
  show (cfg1.win 3).cut (grid1.coords t) ((dat1 V c).after 3 t) = _
  rw [after1_3]
  unfold out1_3
  rw [View.canon_unit_zero zeros2]
  simp only [View.ld_unit_zero (S := S256x512) zeros2, View.ld_unit_zero (S := S512x512) zeros2,
    View.ld_unit_zero (S := S512) zeros1]
  obtain ⟨-, -, -, -, -, e0, e1⟩ := origin1 t
  funext y
  obtain ⟨r, j, rfl⟩ : ∃ (r : Fin 256) (j : Fin 512), y = ix2 r j := ⟨y 0, y 1, eq_ix2 y⟩
  refine (Bodies.pred_body_apply _ _ _ r j).trans ?_
  rw [block1_0, block1_1, block1_2]
  show _ = Cert.Joint.dense (V c main_v1) (V c main_arg4) (V c main_arg5) (((cfg1.win 3).blk t).view.emb (ix2 r j))
  have he : ((cfg1.win 3).blk t).view.emb (ix2 r j) = ix2 r j := by
    funext a; apply Fin.ext
    match a with
    | ⟨0, _⟩ => show win1_3.index t (0 : Fin 2) * 256 + 1 * r.val = r.val; omega
    | ⟨1, _⟩ => show win1_3.index t (1 : Fin 2) * 512 + 1 * j.val = j.val; omega
  rw [he, Cert.Joint.dense_apply]

/-- An index lies in a point's output block iff each coordinate lies in the block's range on its axis. -/
theorem mem_block1 (t : Fin cfg1.N) (i : S256x512.Idx) :
    i ∈ ((cfg1.win 3).blk t).view.set ↔ ∀ a : Fin 2, win1_3.index t a * S256x512.size a ≤ (i a).val
      ∧ (i a).val < win1_3.index t a * S256x512.size a + S256x512.size a := by
  show i ∈ ((View.whole main_v3).slice (win1_3.rect t)).set ↔ _
  rw [View.set_slice_whole, Rect.mem_set_unit]
  exact Iff.rfl

/-- After region 1 its output array holds the dense layer of what the region found in its three input arrays. -/
theorem array1 (c : Dev nD) :
    (dat1 (F := Ideal) V c).arrAt 3 cfg1.N = Cert.Joint.dense (V c main_v1) (V c main_arg4) (V c main_arg5) := by
  refine (dat1 (F := Ideal) V c).arrAt_eq_of_cover 3 _ (fun t _ => flushed1 V c t) fun i => ?_
  refine ⟨t1_0, flush1_3 t1_0, ?_⟩
  obtain ⟨-, -, -, -, -, e0, e1⟩ := origin1 t1_0
  rw [mem_block1]
  intro a
  match a with
  | ⟨0, _⟩ =>
    show win1_3.index t1_0 (0 : Fin 2) * 256 ≤ (i 0).val ∧ (i 0).val < win1_3.index t1_0 (0 : Fin 2) * 256 + 256
    have := (i 0).isLt
    have h : (i 0).val < 256 := this
    omega
  | ⟨1, _⟩ =>
    show win1_3.index t1_0 (1 : Fin 2) * 512 ≤ (i 1).val ∧ (i 1).val < win1_3.index t1_0 (1 : Fin 2) * 512 + 512
    have h : (i 1).val < 512 := (i 1).isLt
    omega

end Cert.KernelIdeal.RegionPred

end
-- ==== Proof.RegionJoint.lean ====
/-
  The logits array after the joint kernel has run, whatever the buffers held when it was entered.

  The kernel's grid is 4 utterances by 16 tiles of 16 encoder frames. At the point (n, k) it is given encoder rows
  16k .. 16k + 15 of utterance n, all 64 predictor rows of utterance n, the whole vocabulary matrix and the whole bias,
  and writes back the block of logits (n, 16k .. 16k + 15, ·, ·). What it stores at (0, r, u, v) depends only on
  encoder row 16k + r and predictor row u of utterance n, which is the network's entry (n, 16k + r, u, v); the 64
  blocks tile the output, so the array ends holding the joint stage of the four input arrays.
-/
import proofs.«146445_j27479200760216_1_alg».proof.Proof.Gen.KernelIdeal.Frame
import proofs.«146445_j27479200760216_1_alg».proof.Proof.Bodies
import proofs.«146445_j27479200760216_1_alg».proof.Proof.Spec
import Idealize.ShloMosaic.Lib.Pipeline.Value
import Idealize.ShloMosaic.Lib.ValueIdx

set_option maxRecDepth 16384

noncomputable section

namespace Cert.KernelIdeal.RegionJoint

open Cert.KernelIdeal Cert.KernelIdeal.Gen Idealize.ShloMosaic Idealize.ShloMosaic.ValueIdx Idealize.ShloMosaic.TcCoe
open Idealize.SL.Sem
open Idealize.ShloMosaic.Pipeline (Dat)

variable (V : (c : Dev nD) → (b : Ref sig .tc) → Buf (Elt Ideal) ((c : Thread nD τ).loc b))

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Where each window's block sits at a grid point, relative to the output's: the encoder block moves with the output
    on the utterance and tile axes, the predictor block on the utterance axis only, the vocabulary matrix and bias stay
    at the origin, and the output's own block index is (n, k, 0, 0) with n < 4 and k < 16. -/
theorem places : ∀ t : Fin cfg2.N,
    win2_0.index t (0 : Fin 3) = win2_4.index t (0 : Fin 4) ∧ win2_0.index t (1 : Fin 3) = win2_4.index t (1 : Fin 4)
    ∧ win2_0.index t (2 : Fin 3) = 0
    ∧ win2_1.index t (0 : Fin 3) = win2_4.index t (0 : Fin 4) ∧ win2_1.index t (1 : Fin 3) = 0
    ∧ win2_1.index t (2 : Fin 3) = 0
    ∧ win2_2.index t (0 : Fin 2) = 0 ∧ win2_2.index t (1 : Fin 2) = 0
    ∧ win2_3.index t (0 : Fin 1) = 0
    ∧ win2_4.index t (2 : Fin 4) = 0 ∧ win2_4.index t (3 : Fin 4) = 0
    ∧ win2_4.index t (0 : Fin 4) ≤ 3 ∧ win2_4.index t (1 : Fin 4) ≤ 15 :=
  (by decide +kernel : ∀ t : Fin grid2.N, _)

/-- Every (utterance, tile) pair is some grid point's. -/
theorem every_tile : ∀ (n : Fin 4) (k : Fin 16), ∃ t : Fin cfg2.N, win2_4.index t = ![n.val, k.val, 0, 0] :=
  (by decide +kernel : ∀ (n : Fin 4) (k : Fin 16), ∃ t : Fin grid2.N, win2_4.index t = ![n.val, k.val, 0, 0])

/-- What the point t writes back is block t of the joint stage of the four input arrays. -/
theorem flushed2 (c : Dev nD) (t : Fin cfg2.N) :
    (dat2 (F := Ideal) V c).flushed 4 t
      = ((cfg2.win 4).blk t).view.read (Elt Ideal)
          (Cert.Joint.joint (φ := .bf16) (V c main_v4) (V c main_v5) (V c main_v6) (V c main_arg7)) := by
  show (cfg2.win 4).cut (grid2.coords t) ((dat2 V c).after 4 t) = _
  rw [after2_4]
  unfold out2_4
  rw [View.canon_unit_zero zeros4]
  simp only [View.ld_unit_zero (S := S1x16x512) zeros3, View.ld_unit_zero (S := S1x64x512) zeros3,
    View.ld_unit_zero (S := S512x1024) zeros2, View.ld_unit_zero (S := S1024) zeros1]
  obtain ⟨p0, p1, p2, p3, p4, p5, p6, p7, p8, p9, p10, p11, p12⟩ := places t
  funext y
  obtain ⟨z, r, u, v, rfl⟩ : ∃ (z : Fin 1) (r : Fin 16) (u : Fin 64) (v : Fin 1024), y = ix4 z r u v :=
    ⟨y 0, y 1, y 2, y 3, eq_ix4 y⟩
  obtain rfl : z = 0 := Fin.ext (by have := z.isLt; omega)
  refine (Bodies.joint_body_apply _ _ _ _ r u v).trans ?_
  -- the entry of the output array this block entry is written to
  have hn : win2_4.index t (0 : Fin 4) * 1 + 1 * 0 < 4 := by omega
  have ht : win2_4.index t (1 : Fin 4) * 16 + 1 * r.val < 256 := by have := r.isLt; omega
  have hI : ((cfg2.win 4).blk t).view.emb (ix4 (0 : Fin 1) r u v)
      = ix4 (⟨_, hn⟩ : Fin 4) (⟨_, ht⟩ : Fin 256) u v := by
    funext a; apply Fin.ext
    match a with
    | ⟨0, _⟩ => rfl
    | ⟨1, _⟩ => rfl
    | ⟨2, _⟩ => show win2_4.index t (2 : Fin 4) * 64 + 1 * u.val = u.val; omega
    | ⟨3, _⟩ => show win2_4.index t (3 : Fin 4) * 1024 + 1 * v.val = v.val; omega
  show _ = Cert.Joint.joint (φ := .bf16) (V c main_v4) (V c main_v5) (V c main_v6) (V c main_arg7)
    (((cfg2.win 4).blk t).view.emb (ix4 (0 : Fin 1) r u v))
  rw [hI, Cert.Joint.joint_apply]
  -- each input block entry is the input array's entry the output's place says
  have hE : ∀ j : Fin 512, iblk2 V c 0 t (ix3 (0 : Fin 1) r j)
      = V c main_v4 (ix3 (⟨_, hn⟩ : Fin 4) (⟨_, ht⟩ : Fin 256) j) := fun j => by
    show V c main_v4 (((cfg2.win 0).blk t).view.emb (ix3 (0 : Fin 1) r j)) = _
    refine congrArg (V c main_v4) ?_
    funext a; apply Fin.ext
    match a with
    | ⟨0, _⟩ => show win2_0.index t (0 : Fin 3) * 1 + 1 * 0 = win2_4.index t (0 : Fin 4) * 1 + 1 * 0; omega
    | ⟨1, _⟩ => show win2_0.index t (1 : Fin 3) * 16 + 1 * r.val = win2_4.index t (1 : Fin 4) * 16 + 1 * r.val; omega
    | ⟨2, _⟩ => show win2_0.index t (2 : Fin 3) * 512 + 1 * j.val = j.val; omega
  have hP : ∀ j : Fin 512, iblk2 V c 1 t (ix3 (0 : Fin 1) u j)
      = V c main_v5 (ix3 (⟨_, hn⟩ : Fin 4) u j) := fun j => by
    show V c main_v5 (((cfg2.win 1).blk t).view.emb (ix3 (0 : Fin 1) u j)) = _
    refine congrArg (V c main_v5) ?_
    funext a; apply Fin.ext
    match a with
    | ⟨0, _⟩ => show win2_1.index t (0 : Fin 3) * 1 + 1 * 0 = win2_4.index t (0 : Fin 4) * 1 + 1 * 0; omega
    | ⟨1, _⟩ => show win2_1.index t (1 : Fin 3) * 64 + 1 * u.val = u.val; omega
    | ⟨2, _⟩ => show win2_1.index t (2 : Fin 3) * 512 + 1 * j.val = j.val; omega
  have hW : ∀ j : Fin 512, iblk2 V c 2 t (ix2 j v) = V c main_v6 (ix2 j v) := fun j => by
    show V c main_v6 (((cfg2.win 2).blk t).view.emb (ix2 j v)) = _
    refine congrArg (V c main_v6) ?_
    funext a; apply Fin.ext
    match a with
    | ⟨0, _⟩ => show win2_2.index t (0 : Fin 2) * 512 + 1 * j.val = j.val; omega
    | ⟨1, _⟩ => show win2_2.index t (1 : Fin 2) * 1024 + 1 * v.val = v.val; omega
  have hB : iblk2 V c 3 t (ix1 v) = V c main_arg7 (ix1 v) := by
    show V c main_arg7 (((cfg2.win 3).blk t).view.emb (ix1 v)) = _
    refine congrArg (V c main_arg7) ?_
    funext a; apply Fin.ext
    match a with
    | ⟨0, _⟩ => show win2_3.index t (0 : Fin 1) * 1024 + 1 * v.val = v.val; omega
  refine congrArg₂ (· + ·) (Finset.sum_congr rfl fun j _ => ?_) hB
  rw [hE j, hP j, hW j]

/-- An index lies in a point's output block iff each coordinate lies in the block's range on its axis. -/
theorem mem_block2 (t : Fin cfg2.N) (i : S4x256x64x1024.Idx) :
    i ∈ ((cfg2.win 4).blk t).view.set ↔ ∀ a : Fin 4, win2_4.index t a * S1x16x64x1024.size a ≤ (i a).val
      ∧ (i a).val < win2_4.index t a * S1x16x64x1024.size a + S1x16x64x1024.size a := by
  show i ∈ ((View.whole main_v7).slice (win2_4.rect t)).set ↔ _
  rw [View.set_slice_whole, Rect.mem_set_unit]
  exact Iff.rfl

/-- After the joint kernel its output array holds the joint stage of what the region found in its four input
    arrays: entry (n, t, u, v) lies in the block of the point for utterance n and tile t / 16. -/
theorem array2 (c : Dev nD) :
    (dat2 (F := Ideal) V c).arrAt 4 cfg2.N
      = Cert.Joint.joint (φ := .bf16) (V c main_v4) (V c main_v5) (V c main_v6) (V c main_arg7) := by
  refine (dat2 (F := Ideal) V c).arrAt_eq_of_cover 4 _ (fun t _ => flushed2 V c t) fun i => ?_
  have h0 : (i 0).val < 4 := (i 0).isLt
  have h1 : (i 1).val < 256 := (i 1).isLt
  have h2 : (i 2).val < 64 := (i 2).isLt
  have h3 : (i 3).val < 1024 := (i 3).isLt
  obtain ⟨t, ht⟩ := every_tile ⟨(i 0).val, h0⟩ ⟨(i 1).val / 16, by omega⟩
  have q0 : win2_4.index t (0 : Fin 4) = (i 0).val := congrFun ht 0
  have q1 : win2_4.index t (1 : Fin 4) = (i 1).val / 16 := congrFun ht 1
  have q2 : win2_4.index t (2 : Fin 4) = 0 := congrFun ht 2
  have q3 : win2_4.index t (3 : Fin 4) = 0 := congrFun ht 3
  refine ⟨t, flush2_4 t, ?_⟩
  rw [mem_block2]
  intro a
  match a with
  | ⟨0, _⟩ =>
    show win2_4.index t (0 : Fin 4) * 1 ≤ (i 0).val ∧ (i 0).val < win2_4.index t (0 : Fin 4) * 1 + 1
    omega
  | ⟨1, _⟩ =>
    show win2_4.index t (1 : Fin 4) * 16 ≤ (i 1).val ∧ (i 1).val < win2_4.index t (1 : Fin 4) * 16 + 16
    omega
  | ⟨2, _⟩ =>
    show win2_4.index t (2 : Fin 4) * 64 ≤ (i 2).val ∧ (i 2).val < win2_4.index t (2 : Fin 4) * 64 + 64
    omega
  | ⟨3, _⟩ =>
    show win2_4.index t (3 : Fin 4) * 1024 ≤ (i 3).val ∧ (i 3).val < win2_4.index t (3 : Fin 4) * 1024 + 1024
    omega

end Cert.KernelIdeal.RegionJoint

end
-- ==== Proof.HostStretches.lean ====
/-
  The two stretches of host operations around the projection kernels, read from an arbitrary starting valuation.

  Before the projections the encoder frames [4, 256, 512] and the predictor states [4, 64, 512] are laid out as
  matrices of rows, [1024, 512] and [256, 512]; nothing else is touched. Between the projections and the joint kernel
  the two projected matrices are laid out as stacks again and the vocabulary matrix is rounded to bf16 (the identity
  on the extended reals); the vocabulary bias is not touched.
-/
import proofs.«146445_j27479200760216_1_alg».proof.Proof.Gen.KernelIdeal.Launch
import Idealize.ShloMosaic.Lib.StableHlo.Run

noncomputable section

namespace Cert.KernelIdeal.HostStretch

open Cert.KernelIdeal Cert.KernelIdeal.Gen Idealize.ShloMosaic Idealize.ShloMosaic.TcCoe Idealize.SL.Sem
open Idealize.ShloMosaic.StableHlo

variable {F : FTy → Type} [FloatOps F] (W : Valuation τ sig (Elt F))

/-! ## Before the projections -/

/-- The encoder frames laid out as a matrix of 1024 rows. -/
theorem enc_matrix : after (hostOps0 (F := F)) W (Proc.devRef .tc main_v0)
    = shapeCast S1024x512 (W (Proc.devRef .tc main_arg0)) shapeCasts_S4x256x512_S1024x512 := by
  after_results; rfl

/-- The predictor states laid out as a matrix of 256 rows. -/
theorem pred_matrix : after (hostOps0 (F := F)) W (Proc.devRef .tc main_v1)
    = shapeCast S256x512 (W (Proc.devRef .tc main_arg1)) shapeCasts_S4x64x512_S256x512 := by
  after_results; rfl

/-- The first stretch writes no argument. -/
theorem kept0_arg2 : after (hostOps0 (F := F)) W (Proc.devRef .tc main_arg2) = W (Proc.devRef .tc main_arg2) := by
  after_results
theorem kept0_arg3 : after (hostOps0 (F := F)) W (Proc.devRef .tc main_arg3) = W (Proc.devRef .tc main_arg3) := by
  after_results
theorem kept0_arg4 : after (hostOps0 (F := F)) W (Proc.devRef .tc main_arg4) = W (Proc.devRef .tc main_arg4) := by
  after_results
theorem kept0_arg5 : after (hostOps0 (F := F)) W (Proc.devRef .tc main_arg5) = W (Proc.devRef .tc main_arg5) := by
  after_results
theorem kept0_arg6 : after (hostOps0 (F := F)) W (Proc.devRef .tc main_arg6) = W (Proc.devRef .tc main_arg6) := by
  after_results
theorem kept0_arg7 : after (hostOps0 (F := F)) W (Proc.devRef .tc main_arg7) = W (Proc.devRef .tc main_arg7) := by
  after_results

/-! ## Between the projections and the joint kernel -/

/-- The projected encoder matrix laid out as a stack of 4 utterances. -/
theorem enc_stack : after (hostOps2 (F := F)) W (Proc.devRef .tc main_v4)
    = shapeCast S4x256x512 (W (Proc.devRef .tc main_v2)) shapeCasts_S1024x512_S4x256x512 := by
  after_results; rfl

/-- The projected predictor matrix laid out as a stack of 4 utterances. -/
theorem pred_stack : after (hostOps2 (F := F)) W (Proc.devRef .tc main_v5)
    = shapeCast S4x64x512 (W (Proc.devRef .tc main_v3)) shapeCasts_S256x512_S4x64x512 := by
  after_results; rfl

/-- The vocabulary matrix, rounded. -/
theorem vocab_rounded : after (hostOps2 (F := F)) W (Proc.devRef .tc main_v6)
    = truncf .bf16 (W (Proc.devRef .tc main_arg6)) bitsLt_bf16_f32 := by
  after_results

/-- The second stretch does not write the vocabulary bias. -/
theorem kept2_arg7 : after (hostOps2 (F := F)) W (Proc.devRef .tc main_arg7) = W (Proc.devRef .tc main_arg7) := by
  after_results

end Cert.KernelIdeal.HostStretch

end
-- ==== Proof.Stacked.lean ====
/-
  A dense layer applied to a stack of matrices through its tall-matrix layout.

  Lay a stack [G, m, 512] out as one matrix of G·m rows (row n·m + a is row (n, a)), apply the dense layer to that
  matrix, and lay the result out as a stack again: entry (n, a, j) of the result is row n·m + a of the dense layer,
  whose inputs are row (n, a) of the stack. So it is the dense layer applied to the stack directly.
-/
import proofs.«146445_j27479200760216_1_alg».proof.Proof.Spec
import proofs.«146445_j27479200760216_1_alg».proof.Proof.LibMergeRows
import Idealize.ShloMosaic.Lib.Pipeline.Value
import Idealize.ShloMosaic.Lib.ValueIdx

noncomputable section

namespace Cert.Joint

open Idealize.ShloMosaic Idealize.ShloMosaic.ValueIdx

/-- The dense layer of a stack, computed through its tall-matrix layout, is the dense layer of the stack. -/
theorem rows_of_dense {G m R : Nat} (hR : R = G * m) (x : FVec Ideal ⟨3, ![G, m, 512]⟩ .f32)
    (w : FVec Ideal ⟨2, ![512, 512]⟩ .f32) (b : FVec Ideal ⟨1, ![512]⟩ .f32)
    (h1 : (⟨3, ![G, m, 512]⟩ : Shape).ShapeCasts ⟨2, ![R, 512]⟩)
    (h2 : (⟨2, ![R, 512]⟩ : Shape).ShapeCasts ⟨3, ![G, m, 512]⟩) :
    shapeCast ⟨3, ![G, m, 512]⟩ (dense (shapeCast ⟨2, ![R, 512]⟩ x h1) w b) h2 = rows x w b := by
  funext i
  obtain ⟨n, a, j, rfl⟩ : ∃ (n : Fin G) (a : Fin m) (j : Fin 512), i = ix3 n a j := ⟨i 0, i 1, i 2, eq_ix3 i⟩
  have hr : n.val * m + a.val < R := by
    subst hR
    exact Nat.lt_of_lt_of_le (Nat.add_lt_add_left a.isLt _)
      (by rw [← Nat.succ_mul]; exact Nat.mul_le_mul_right _ n.isLt)
  refine (Cert.Lib.MergeRows.split_apply _ h2 n a j (⟨n.val * m + a.val, hr⟩ : Fin R) rfl).trans ?_
  rw [dense_apply, rows_apply]
  refine congrArg (· + b (ix1 j)) (Finset.sum_congr rfl fun e _ => ?_)
  rw [Cert.Lib.MergeRows.merge_apply x h1 n a e (⟨n.val * m + a.val, hr⟩ : Fin R) rfl]

end Cert.Joint

end
-- ==== Proof.KernelValue.lean ====
/-
  The kernel program's result as the specification's network of its eight arguments.

  The program is five segments: lay the encoder frames and predictor states out as matrices of rows; the encoder
  projection; the predictor projection; lay the two projected matrices out as stacks and round the vocabulary matrix;
  the joint kernel. Reading the buffer contents backwards from the end: the logits are the joint stage of the four
  arrays the joint kernel found; of those, the encoder stack is the stacked layout of the encoder projection's output,
  which is the dense layer of the matrix layout of the encoder frames — by `rows_of_dense` the dense layer of the
  frames themselves — and the same for the predictor side (whose projection ran after the encoder's and did not touch
  it); the rounded vocabulary matrix is the vocabulary matrix, and the bias was never written.
-/
import proofs.«146445_j27479200760216_1_alg».proof.Proof.FrameWithResult
import proofs.«146445_j27479200760216_1_alg».proof.Proof.RegionEnc
import proofs.«146445_j27479200760216_1_alg».proof.Proof.RegionPred
import proofs.«146445_j27479200760216_1_alg».proof.Proof.RegionJoint
import proofs.«146445_j27479200760216_1_alg».proof.Proof.HostStretches
import proofs.«146445_j27479200760216_1_alg».proof.Proof.Stacked

set_option maxRecDepth 16384

noncomputable section

namespace Cert.KernelIdeal.Value

open Cert.KernelIdeal Cert.KernelIdeal.Gen Idealize.ShloMosaic Idealize.ShloMosaic.ValueIdx Idealize.ShloMosaic.TcCoe
open Idealize.SL.Sem

variable (m : (ℓ : Loc nD τ sig) → Buf (Elt Ideal) ℓ) (ρ : Dev nD → PrngReg)

/-- The projections write only their own output arrays: any other buffer is, at the end of the second projection, what
    the first host stretch left. -/
theorem through_projections (c : Dev nD) (b : Ref sig .tc) (h0 : ∀ w, Pipeline.arrRef spec0 w ≠ b)
    (h1 : ∀ w, Pipeline.arrRef spec1 w ≠ b) :
    W3 (F := Ideal) m ρ c (Proc.devRef .tc b) = W1 m ρ c (Proc.devRef .tc b) :=
  (W3_of_ne m ρ c b h1).trans (W2_of_ne m ρ c b h0)

/-- The encoder stack the joint kernel finds: the dense layer of the encoder frames. -/
theorem enc_found (c : Dev nD) :
    V4 (F := Ideal) m ρ c main_v4
      = Cert.Joint.rows (m ((c.tc : Thread nD τ).loc main_arg0)) (m ((c.tc : Thread nD τ).loc main_arg2))
          (m ((c.tc : Thread nD τ).loc main_arg3)) := by
  show StableHlo.after hostOps2 (W3 m ρ c) (Proc.devRef .tc main_v4) = _
  rw [HostStretch.enc_stack, W3_of_ne m ρ c main_v2 (by decide)]
  have hA : W2 (F := Ideal) m ρ c (Proc.devRef .tc main_v2) = (dat0 (V1 m ρ) c).arrAt 3 cfg0.N := W2_arr m ρ c 3
  rw [hA, RegionEnc.array0]
  have e0 : V1 (F := Ideal) m ρ c main_v0
      = shapeCast S1024x512 (m ((c.tc : Thread nD τ).loc main_arg0)) shapeCasts_S4x256x512_S1024x512 :=
    HostStretch.enc_matrix (W0 m ρ c)
  have e2 : V1 (F := Ideal) m ρ c main_arg2 = m ((c.tc : Thread nD τ).loc main_arg2) :=
    HostStretch.kept0_arg2 (W0 m ρ c)
  have e3 : V1 (F := Ideal) m ρ c main_arg3 = m ((c.tc : Thread nD τ).loc main_arg3) :=
    HostStretch.kept0_arg3 (W0 m ρ c)
  rw [e0, e2, e3]
  exact Cert.Joint.rows_of_dense (by decide) _ _ _ _ _

/-- The predictor stack the joint kernel finds: the dense layer of the predictor states. -/
theorem pred_found (c : Dev nD) :
    V4 (F := Ideal) m ρ c main_v5
      = Cert.Joint.rows (m ((c.tc : Thread nD τ).loc main_arg1)) (m ((c.tc : Thread nD τ).loc main_arg4))
          (m ((c.tc : Thread nD τ).loc main_arg5)) := by
  show StableHlo.after hostOps2 (W3 m ρ c) (Proc.devRef .tc main_v5) = _
  rw [HostStretch.pred_stack]
  have hA : W3 (F := Ideal) m ρ c (Proc.devRef .tc main_v3) = (dat1 (V2 m ρ) c).arrAt 3 cfg1.N := W3_arr m ρ c 3
  rw [hA, RegionPred.array1]
  have e1 : V2 (F := Ideal) m ρ c main_v1
      = shapeCast S256x512 (m ((c.tc : Thread nD τ).loc main_arg1)) shapeCasts_S4x64x512_S256x512 :=
    (W2_of_ne m ρ c main_v1 (by decide)).trans (HostStretch.pred_matrix (W0 m ρ c))
  have e4 : V2 (F := Ideal) m ρ c main_arg4 = m ((c.tc : Thread nD τ).loc main_arg4) :=
    (W2_of_ne m ρ c main_arg4 (by decide)).trans (HostStretch.kept0_arg4 (W0 m ρ c))
  have e5 : V2 (F := Ideal) m ρ c main_arg5 = m ((c.tc : Thread nD τ).loc main_arg5) :=
    (W2_of_ne m ρ c main_arg5 (by decide)).trans (HostStretch.kept0_arg5 (W0 m ρ c))
  rw [e1, e4, e5]
  exact Cert.Joint.rows_of_dense (by decide) _ _ _ _ _

/-- The vocabulary matrix the joint kernel finds: the argument, rounded (the identity on the extended reals). -/
theorem vocab_found (c : Dev nD) :
    V4 (F := Ideal) m ρ c main_v6
      = (truncf .bf16 (m ((c.tc : Thread nD τ).loc main_arg6) : FVec Ideal S512x1024 .f32) bitsLt_bf16_f32
          : FVec Ideal S512x1024 .bf16) := by
  show StableHlo.after hostOps2 (W3 m ρ c) (Proc.devRef .tc main_v6) = _
  rw [HostStretch.vocab_rounded, through_projections m ρ c main_arg6 (by decide) (by decide)]
  exact congrArg (fun x : FVec Ideal S512x1024 .f32 => (truncf .bf16 x bitsLt_bf16_f32 : FVec Ideal S512x1024 .bf16))
    (HostStretch.kept0_arg6 (W0 m ρ c))

/-- The vocabulary bias the joint kernel finds: the argument. -/
theorem bias_found (c : Dev nD) : V4 (F := Ideal) m ρ c main_arg7 = m ((c.tc : Thread nD τ).loc main_arg7) := by
  show StableHlo.after hostOps2 (W3 m ρ c) (Proc.devRef .tc main_arg7) = _
  rw [HostStretch.kept2_arg7, through_projections m ρ c main_arg7 (by decide) (by decide)]
  exact HostStretch.kept0_arg7 (W0 m ρ c)

/-- The result buffer at the end of the run is the network of the eight arguments. -/
theorem result_eq (c : Dev nD) :
    W5 (F := Ideal) m ρ c (Proc.devRef .tc main_v7)
      = Cert.Joint.logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  have hA : W5 (F := Ideal) m ρ c (Proc.devRef .tc main_v7) = (dat2 (V4 m ρ) c).arrAt 4 cfg2.N := W5_arr m ρ c 4
  rw [hA, RegionJoint.array2, enc_found, pred_found, vocab_found, bias_found]
  rfl

/-- Every weakly fair execution of the kernel program terminates with the result at the network of the arguments and
    the arguments unchanged. -/
theorem run : θ_run defs (onTc (τ := τ) (main (F := Ideal))) ⟨m, fun _ => 0, ρ⟩ (fun r => ∀ c : Dev nD,
      r.2.mem ((c.tc : Thread nD τ).loc main_v7)
        = Cert.Joint.logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (GenP.run_main m ρ)

end Cert.KernelIdeal.Value

end
-- ==== Proof.ReferenceValue.lean ====
/-
  The reference computes the network of the specification.

  Read at the entry (n, t, u, v), the reference's last sum is the contraction over the joint coordinate j of its tanh
  stage at (n, t, u, j) against the vocabulary matrix at (j, v), plus the bias at v. The tanh stage at (n, t, u, j) is
  tanh of the sum of two broadcasts: the projected encoder row (n, t) at j, repeated over u, and the projected
  predictor row (n, u) at j, repeated over t. Each projected row is a contraction over the input coordinate plus a
  bias repeated over the two leading axes. These are the specification's `rows` and `joint`, term by term.
-/
import proofs.«146445_j27479200760216_1_alg».proof.Proof.Gen.ReferenceIdeal.Read
import proofs.«146445_j27479200760216_1_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx

/-- The projected encoder rows, as the reference computes them, at (n, t, j). -/
theorem enc_rows_apply (x0 : FVec Ideal S4x256x512 .f32) (x2 : FVec Ideal S512x512 .f32) (x3 : FVec Ideal S512 .f32)
    (n : Fin 4) (t : Fin 256) (j : Fin 512) :
    val_main_v3 (F := Ideal) x0 x2 x3 (ix3 n t j) = Cert.Joint.rows x0 x2 x3 (ix3 n t j) := by
  rw [val_main_v3_apply, val_main_v0_apply, val_main_v2_apply, val_main_v1_apply, Cert.Joint.rows_apply]
  have el : ∀ e : Fin 512, lidx_main_v0 (ix3 n t j) e = ix3 n t e := fun e => funext fun a => Fin.ext (by
    match a with | ⟨0, _⟩ => rfl | ⟨1, _⟩ => rfl | ⟨2, _⟩ => rfl)
  have er : ∀ e : Fin 512, ridx_main_v0 (ix3 n t j) e = ix2 e j := fun e => funext fun a => Fin.ext (by
    match a with | ⟨0, _⟩ => rfl | ⟨1, _⟩ => rfl)
  have eb : idx_main_v1 (idx_main_v2 (ix3 n t j)) = ix1 j := funext fun a => Fin.ext (by
    match a with | ⟨0, _⟩ => rfl)
  simp only [el, er, eb, Ideal.addf_def]

/-- The projected predictor rows, as the reference computes them, at (n, u, j). -/
theorem pred_rows_apply (x1 : FVec Ideal S4x64x512 .f32) (x4 : FVec Ideal S512x512 .f32) (x5 : FVec Ideal S512 .f32)
    (n : Fin 4) (u : Fin 64) (j : Fin 512) :
    val_main_v7 (F := Ideal) x1 x4 x5 (ix3 n u j) = Cert.Joint.rows x1 x4 x5 (ix3 n u j) := by
  rw [val_main_v7_apply, val_main_v4_apply, val_main_v6_apply, val_main_v5_apply, Cert.Joint.rows_apply]
  have el : ∀ e : Fin 512, lidx_main_v4 (ix3 n u j) e = ix3 n u e := fun e => funext fun a => Fin.ext (by
    match a with | ⟨0, _⟩ => rfl | ⟨1, _⟩ => rfl | ⟨2, _⟩ => rfl)
  have er : ∀ e : Fin 512, ridx_main_v4 (ix3 n u j) e = ix2 e j := fun e => funext fun a => Fin.ext (by
    match a with | ⟨0, _⟩ => rfl | ⟨1, _⟩ => rfl)
  have eb : idx_main_v5 (idx_main_v6 (ix3 n u j)) = ix1 j := funext fun a => Fin.ext (by
    match a with | ⟨0, _⟩ => rfl)
  simp only [el, er, eb, Ideal.addf_def]

/-- The reference's tanh stage at (n, t, u, j): tanh of projected encoder row (n, t) plus projected predictor row
    (n, u), at j. -/
theorem tanh_stage_apply (x0 : FVec Ideal S4x256x512 .f32) (x1 : FVec Ideal S4x64x512 .f32)
    (x2 : FVec Ideal S512x512 .f32) (x3 : FVec Ideal S512 .f32) (x4 : FVec Ideal S512x512 .f32)
    (x5 : FVec Ideal S512 .f32) (n : Fin 4) (t : Fin 256) (u : Fin 64) (j : Fin 512) :
    val_main_v13 (F := Ideal) x0 x1 x2 x3 x4 x5 (ix4 n t u j)
      = Ideal.tanh (Cert.Joint.rows x0 x2 x3 (ix3 n t j) + Cert.Joint.rows x1 x4 x5 (ix3 n u j)) := by
  rw [val_main_v13_apply, val_main_v12_apply, val_main_v10_apply, val_main_v8_apply, val_main_v11_apply,
    val_main_v9_apply]
  have ee : idx_main_v8 (idx_main_v10 (ix4 n t u j)) = ix3 n t j := funext fun a => Fin.ext (by
    match a with | ⟨0, _⟩ => rfl | ⟨1, _⟩ => rfl | ⟨2, _⟩ => rfl)
  have ep : idx_main_v9 (idx_main_v11 (ix4 n t u j)) = ix3 n u j := funext fun a => Fin.ext (by
    match a with | ⟨0, _⟩ => rfl | ⟨1, _⟩ => rfl | ⟨2, _⟩ => rfl)
  rw [ee, ep, enc_rows_apply, pred_rows_apply]
  simp only [Ideal.addf_def, Ideal.hostUnary_tanh_def]

/-- The reference's result is the specification's network of its eight arguments. -/
theorem result_eq (x0 : FVec Ideal S4x256x512 .f32) (x1 : FVec Ideal S4x64x512 .f32) (x2 : FVec Ideal S512x512 .f32)
    (x3 : FVec Ideal S512 .f32) (x4 : FVec Ideal S512x512 .f32) (x5 : FVec Ideal S512 .f32)
    (x6 : FVec Ideal S512x1024 .f32) (x7 : FVec Ideal S1024 .f32) :
    val_main_v17 (F := Ideal) x0 x1 x2 x3 x4 x5 x6 x7 = Cert.Joint.logits x0 x1 x2 x3 x4 x5 x6 x7 := by
  funext i
  obtain ⟨n, t, u, v, rfl⟩ : ∃ (n : Fin 4) (t : Fin 256) (u : Fin 64) (v : Fin 1024), i = ix4 n t u v :=
    ⟨i 0, i 1, i 2, i 3, eq_ix4 i⟩
  rw [val_main_v17_apply, val_main_v14_apply, val_main_v16_apply, val_main_v15_apply]
  unfold Cert.Joint.logits
  rw [Cert.Joint.joint_apply]
  have el : ∀ j : Fin 512, lidx_main_v14 (ix4 n t u v) j = ix4 n t u j := fun j => funext fun a => Fin.ext (by
    match a with | ⟨0, _⟩ => rfl | ⟨1, _⟩ => rfl | ⟨2, _⟩ => rfl | ⟨3, _⟩ => rfl)
  have er : ∀ j : Fin 512, ridx_main_v14 (ix4 n t u v) j = ix2 j v := fun j => funext fun a => Fin.ext (by
    match a with | ⟨0, _⟩ => rfl | ⟨1, _⟩ => rfl)
  have eb : idx_main_v15 (idx_main_v16 (ix4 n t u v)) = ix1 v := funext fun a => Fin.ext (by
    match a with | ⟨0, _⟩ => rfl)
  simp only [el, er, eb, tanh_stage_apply, Ideal.addf_def]

end Cert.ReferenceIdeal.RefValue

end
-- ==== Proof.lean ====
/-
  A transducer's joint network: the fused kernels against the einsum reference, over the extended reals.

  Both programs compute, for utterance n, encoder frame t, predictor state u and vocabulary entry v,

      logits(n, t, u, v) = Σ_j tanh( E(n, t, j) + P(n, u, j) ) · W_joint(j, v) + b_joint(v),
      E(n, t, j) = Σ_e enc(n, t, e) · W_enc(e, j) + b_enc(j),      P(n, u, j) = Σ_p pred(n, u, p) · W_pred(p, j) + b_pred(j)

  (Proof/Spec.lean). The kernel program gets there in three kernels — two dense layers on matrices of rows, and a
  joint kernel that, for a tile of 16 encoder frames, forms all 16 × 64 sums, applies tanh and multiplies by the
  vocabulary matrix — with reshapes between them; its matrix products round their operands to bf16, which is the
  identity on the extended reals (Proof/Bodies.lean, Proof/Region*.lean, Proof/KernelValue.lean). The reference gets
  there by three einsums and broadcasts (Proof/ReferenceValue.lean). The two results are the same term of the same
  sums in the same order: no algebraic law is needed, so the finiteness of the inputs is never used.

  The idealized kernel is the printed kernel read at the extended reals, with no rewrite, so there is nothing to
  preserve; the three programs' termination and unchanged arguments are the generated frame runs.
-/
import proofs.«146445_j27479200760216_1_alg».proof.Defs
import proofs.«146445_j27479200760216_1_alg».proof.Proof.Gen.Kernel
import proofs.«146445_j27479200760216_1_alg».proof.Proof.Gen.Kernel.Skeleton
import proofs.«146445_j27479200760216_1_alg».proof.Proof.Gen.Kernel.Launch
import proofs.«146445_j27479200760216_1_alg».proof.Proof.Gen.Kernel.Points
import proofs.«146445_j27479200760216_1_alg».proof.Proof.Gen.Kernel.Frame
import proofs.«146445_j27479200760216_1_alg».proof.Proof.Gen.KernelIdeal
import proofs.«146445_j27479200760216_1_alg».proof.Proof.Gen.KernelIdeal.Skeleton
import proofs.«146445_j27479200760216_1_alg».proof.Proof.Gen.KernelIdeal.Launch
import proofs.«146445_j27479200760216_1_alg».proof.Proof.Gen.KernelIdeal.Points
import proofs.«146445_j27479200760216_1_alg».proof.Proof.Gen.KernelIdeal.Frame
import proofs.«146445_j27479200760216_1_alg».proof.Proof.Gen.ReferenceIdeal
import proofs.«146445_j27479200760216_1_alg».proof.Proof.Gen.ReferenceIdeal.Run
import proofs.«146445_j27479200760216_1_alg».proof.Proof.Gen.ReferenceIdeal.Read
import proofs.«146445_j27479200760216_1_alg».proof.Proof.Gen.Pre_finite_inputs
import proofs.«146445_j27479200760216_1_alg».proof.Proof.KernelValue
import proofs.«146445_j27479200760216_1_alg».proof.Proof.ReferenceValue
import Idealize.ShloMosaic.Adequacy
import Idealize.ShloMosaic.Init

noncomputable section

namespace Cert.Proof

open Idealize.ShloMosaic Idealize.ShloMosaic.TcCoe Idealize.SL.Sem

/-- The printed kernel program terminates and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the eight arguments, both programs end with the specification's network of those
    arguments in their result buffers. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v17_eq, Cert.ReferenceIdeal.RefValue.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
